-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_v28 : IVec S_ 1) (main_v32 : IVec S4096 1) (main_c_12 : IVec S_ 1) : IVec S_ 1 :=
  let main_v33 : IVec S_ 1 := (fun x v => Host.reduce IntOp.andi x v reducesTo_S4096_S_d0 h_S_) main_v32 main_c_12
  let main_v34 : IVec S_ 1 := andi main_v28 main_v33
  main_v34

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_cst_10 : FVec F S_ .f32 := constant S_ .f32 0x3727C5AC#32
  let main_v29 : FVec F S4096 .f32 := broadcastInDim S4096 ![] bcast_S_S4096 main_cst_10
  let main_v30 : FVec F S4096 .f32 := addf main_arg5 main_v29
  let main_cst_11 : FVec F S_ .f32 := constant S_ .f32 0x00000000#32
  let main_v31 : FVec F S4096 .f32 := broadcastInDim S4096 ![] bcast_S_S4096 main_cst_11
  let main_v32 : IVec S4096 1 := cmpf .ogt main_v30 main_v31
  let main_c_12 : IVec S_ 1 := constantI S_ 1 1#1
  fn_part2 (F := F) main_v28 main_v32 main_c_12

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x4096 : Shape := ⟨2, ![2048, 4096]⟩
abbrev S4096x512 : Shape := ⟨2, ![4096, 512]⟩
abbrev S1x512 : Shape := ⟨2, ![1, 512]⟩
abbrev S2048x512 : Shape := ⟨2, ![2048, 512]⟩

abbrev nBuf : Space → Nat
  | .hbm => 19
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S8192x4096, .bf16⟩
  | .hbm, ⟨17, _⟩ => ⟨S4096x4096, .bf16⟩
  | .hbm, ⟨18, _⟩ => ⟨S8192x4096, .f32⟩
  | .local _ .vmem, ⟨0, _⟩ => ⟨S2048x4096, .bf16⟩
  | .local _ .vmem, ⟨1, _⟩ => ⟨S2048x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x512, .f32⟩
  | .local _ .vmem, ⟨9, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S4096 : S_.BroadcastsInDim S4096 (![] : Fin 0 → Fin S4096.rank)
  shapeCasts_S4096_S1x4096 : S4096.ShapeCasts S1x4096
  bitsLt_bf16_f32 : FTy.bits .bf16 < FTy.bits .f32
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x4096_S4096x512_S2048x512_1_0_0_1_n_n_wf : DotDims.WF S2048x4096 S4096x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S8192x4096.size a
  hwx0_0 : ∀ i : grid0.Coords, EltTy.bits .bf16 = 32 ∨ (Rect.block (s := S8192x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x4096.size a
  hwx0_4 : ∀ i : grid0.Coords, EltTy.bits .f32 = 32 ∨ (Rect.block (s := S8192x4096) S2048x512.size (cc0_transform_4 i) (hinb0_4 i)).WholeWords (EltTy.packing .f32)

variable [Facts₀]

def dot_S2048x4096_S4096x512_S2048x512_1_0_0_1_n_n : DotDims S2048x4096 S4096x512 S2048x512 where
  lhsContracting := [1]
  rhsContracting := [0]
  lhsNonContracting := [0]
  rhsNonContracting := [1]
  lhsBatch := []
  rhsBatch := []
  wf := dot_S2048x4096_S4096x512_S2048x512_1_0_0_1_n_n_wf

abbrev win0_0 : Pipeline.Window sig grid0 :=
  Pipeline.Window.ofSpec (Memref.whole main_v9) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S4096 : S_.BroadcastsInDim S4096 (![] : Fin 0 → Fin S4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The mathematics of the certificate, with no program in sight.

  Both programs compute, for a batch row `b` and a column `n`,
      relu (gelu_tanh (bn (∑ k, x[b,k] · w[k,n])))
  and differ only in how the inference batch normalisation `bn` is arranged. With `u = var[n] + ε`:
    * the kernel folds the affine map into one scale and one bias per column,
          a · (γ · u^(-1/2)) + (β − μ · γ · u^(-1/2));
    * the reference normalises first,
          γ · ((a − μ) / √u) + β.
  Over the reals with `u > 0` the two are one number (`1/√u` is a field inverse and the rest is
  distributivity). On the extended reals distributivity fails at the infinities, so the law is stated for
  REAL `a, γ, β, μ` — which is why the inputs' finiteness is used — and for `0 < u`, which is the domain of the
  reference's own divisor `√u`. The case `u = +∞` needs no exclusion: there both forms are `β`.

  The GELU/ReLU tail is the same function of `bn` on both sides, literal words included, so it is carried as one
  name (`geluRelu`) and never opened.
-/
import Idealize.ShloMosaic.PureOps.Ideal
import Idealize.ShloMosaic.Lib.ValueIdx

noncomputable section

open scoped BigOperators
open Idealize.ShloMosaic Idealize.ShloMosaic.ValueIdx

namespace Cert.Spec

/-- The word both programs add to the variance before the square root: the `f32` nearest to `1e-5`. -/
abbrev eps : EReal := Ideal.ofBits .f32 0x3727C5AC#32

/-- The tanh-approximate GELU followed by ReLU, in the order and with the `f32` words both programs use:
    `max ((½·b) · (1 + tanh (c·(b + ((κ·b)·b)·b)))) 0` with `c ≈ √(2/π)`, `κ ≈ 0.044715`. -/
def geluRelu (b : EReal) : EReal :=
  max ((Ideal.ofBits .f32 0x3F000000#32 * b)
        * (Ideal.ofBits .f32 0x3F800000#32
            + Ideal.tanh (Ideal.ofBits .f32 0x3F4C422A#32
                * (b + ((Ideal.ofBits .f32 0x3D372713#32 * b) * b) * b))))
      (Ideal.ofBits .f32 0x00000000#32)

/-- The kernel's batch normalisation: one folded scale `γ·u^(-1/2)` and one folded bias `β − μ·γ·u^(-1/2)`. -/
def foldedNorm (a g b m u : EReal) : EReal := a * (g * Ideal.rsqrt u) + (b - m * g * Ideal.rsqrt u)

/-- The reference's batch normalisation: centre, divide by `√u`, then scale and shift. -/
def plainNorm (a g b m u : EReal) : EReal := g * Ideal.div (a - m) (Ideal.sqrt u) + b

/-- THE LAW that joins the two programs: for real `a, γ, β, μ` and `0 < u` the folded and the plain batch
    normalisation are one extended real. For real `u > 0` it is the field identity
    `a(γ s⁻¹) + (β − μ γ s⁻¹) = γ((a − μ) s⁻¹) + β` with `s = √u`; at `u = +∞` both sides are `β`. -/
theorem foldedNorm_eq_plainNorm (a g b m : ℝ) (u : EReal) (hu : 0 < u) :
    foldedNorm a g b m u = plainNorm a g b m u := by
  unfold foldedNorm plainNorm
  induction u using EReal.rec with
  | bot => exact absurd hu (not_lt_bot)
  | top =>
    have hd : Ideal.div ((a : EReal) - (m : EReal)) ⊤ = 0 := by
      rw [Ideal.div, if_neg EReal.top_ne_zero, EReal.inv_top, mul_zero]
    simp only [Ideal.rsqrt_top, Ideal.sqrt_top, hd, mul_zero, sub_zero, zero_add]
  | coe r =>
    have hr : 0 < r := by exact_mod_cast hu
    have hs : Real.sqrt r ≠ 0 := (Real.sqrt_pos.2 hr).ne'
    rw [Ideal.rsqrt_coe, if_neg (not_lt.2 hr.le), if_neg hr.ne', Ideal.sqrt_coe, if_neg (not_lt.2 hr.le),
      Ideal.div_coe hs]
    simp only [← EReal.coe_mul, ← EReal.coe_sub, ← EReal.coe_add]
    rw [EReal.coe_eq_coe_iff]
    ring

/-- A finite sum of products of reals, computed in the extended reals, is the real sum. -/
theorem sum_coe_mul_coe {ι : Type} (s : Finset ι) (f g : ι → ℝ) :
    ∑ k ∈ s, ((f k : EReal) * (g k : EReal)) = ((∑ k ∈ s, f k * g k : ℝ) : EReal) := by
  classical
  induction s using Finset.induction_on with
  | empty => rw [Finset.sum_empty, Finset.sum_empty, EReal.coe_zero]
  | insert a s ha ih => rw [Finset.sum_insert ha, Finset.sum_insert ha, ih, EReal.coe_add, EReal.coe_mul]

/-! ## The two results as whole-array functions of the six argument arrays -/

/-- Row `b` of `x` against column `n` of `w`: the contraction both matrix products compute at `(b, n)`. -/
def rowDotCol (x : (⟨2, ![8192, 4096]⟩ : Shape).Idx → EReal) (w : (⟨2, ![4096, 4096]⟩ : Shape).Idx → EReal)
    (b : Fin 8192) (n : Fin 4096) : EReal :=
  ∑ k : Fin 4096, x (ix2 b k) * w (ix2 k n)

/-- What the kernel's program leaves in its result array, entry `(b, n)`. -/
def kernelOut (x : (⟨2, ![8192, 4096]⟩ : Shape).Idx → EReal) (w : (⟨2, ![4096, 4096]⟩ : Shape).Idx → EReal)
    (γ β μ v : (⟨1, ![4096]⟩ : Shape).Idx → EReal) (b : Fin 8192) (n : Fin 4096) : EReal :=
  geluRelu (foldedNorm (rowDotCol x w b n) (γ (ix1 n)) (β (ix1 n)) (μ (ix1 n)) (v (ix1 n) + eps))

/-- What the reference leaves in its result array, entry `(b, n)`. -/
def referenceOut (x : (⟨2, ![8192, 4096]⟩ : Shape).Idx → EReal) (w : (⟨2, ![4096, 4096]⟩ : Shape).Idx → EReal)
    (γ β μ v : (⟨1, ![4096]⟩ : Shape).Idx → EReal) (b : Fin 8192) (n : Fin 4096) : EReal :=
  geluRelu (plainNorm (rowDotCol x w b n) (γ (ix1 n)) (β (ix1 n)) (μ (ix1 n)) (v (ix1 n) + eps))

/-- On finite `x, w, γ, β, μ` and where every `var[n] + ε` is positive, the two results agree entry by entry:
    the contraction is then a real number, and the law above joins the two normalisations under the shared tail. -/
theorem kernelOut_eq_referenceOut
    (x : (⟨2, ![8192, 4096]⟩ : Shape).Idx → EReal) (w : (⟨2, ![4096, 4096]⟩ : Shape).Idx → EReal)
    (γ β μ v : (⟨1, ![4096]⟩ : Shape).Idx → EReal)
    (hx : ∀ i, ∃ r : ℝ, x i = (r : EReal)) (hw : ∀ i, ∃ r : ℝ, w i = (r : EReal))
    (hγ : ∀ i, ∃ r : ℝ, γ i = (r : EReal)) (hβ : ∀ i, ∃ r : ℝ, β i = (r : EReal))
    (hμ : ∀ i, ∃ r : ℝ, μ i = (r : EReal)) (hv : ∀ i, 0 < v i + eps)
    (b : Fin 8192) (n : Fin 4096) :
    kernelOut x w γ β μ v b n = referenceOut x w γ β μ v b n := by
  choose xr hxr using hx
  choose wr hwr using hw
  obtain ⟨g, hg⟩ := hγ (ix1 n)
  obtain ⟨b', hb⟩ := hβ (ix1 n)
  obtain ⟨m, hm⟩ := hμ (ix1 n)
  have ha : rowDotCol x w b n = ((∑ k : Fin 4096, xr (ix2 b k) * wr (ix2 k n) : ℝ) : EReal) := by
    unfold rowDotCol
    simp only [hxr, hwr]
    exact sum_coe_mul_coe Finset.univ (fun k => xr (ix2 b k)) (fun k => wr (ix2 k n))
  unfold kernelOut referenceOut
  rw [ha, hg, hb, hm]
  exact congrArg geluRelu (foldedNorm_eq_plainNorm _ g b' m _ (hv (ix1 n)))

end Cert.Spec

end
-- ==== Proof.Payload.lean ====
/-
  The kernel body's one stored value, one entry at a time.

  At a grid point the body holds a `[2048, 4096]` block of `x`, a `[4096, 512]` block of `w` and one `[1, 512]`
  row each of the folded scale and bias. Entry `(p, q)` of what it stores is the shared GELU/ReLU tail of
  `(∑ k, xblk[p,k] · wblk[k,q]) · scale[0,q] + bias[0,q]`: the matrix unit's product into a zero accumulator is the plain
  contraction of row `p` with column `q`, and the two rows are broadcast down the block's 2048 rows.
-/
import proofs.«158655_j3556232922286_2_alg».proof.Proof.Gen.KernelIdeal.Skeleton
import proofs.«158655_j3556232922286_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-! ## The matrix product at an entry -/

theorem lhs_row (i : S2048x512.Idx) (q : dot_S2048x4096_S4096x512_S2048x512_1_0_0_1_n_n.contr.Idx) :
    (dot_S2048x4096_S4096x512_S2048x512_1_0_0_1_n_n.lhsIdx i q 0).val = (i 0).val := by
  unfold DotDims.lhsIdx
  rw [dif_neg (show ¬(0 : Fin S2048x4096.rank) ∈ dot_S2048x4096_S4096x512_S2048x512_1_0_0_1_n_n.lhsBatch by decide),
    dif_pos (show (0 : Fin S2048x4096.rank) ∈ dot_S2048x4096_S4096x512_S2048x512_1_0_0_1_n_n.lhsNonContracting by decide)]
  rfl
theorem lhs_contr (i : S2048x512.Idx) (q : dot_S2048x4096_S4096x512_S2048x512_1_0_0_1_n_n.contr.Idx) :
    (dot_S2048x4096_S4096x512_S2048x512_1_0_0_1_n_n.lhsIdx i q 1).val = (q ⟨0, by decide⟩).val :=
  dot_S2048x4096_S4096x512_S2048x512_1_0_0_1_n_n.lhsIdx_val_of_single rfl i q
theorem rhs_contr (i : S2048x512.Idx) (q : dot_S2048x4096_S4096x512_S2048x512_1_0_0_1_n_n.contr.Idx) :
    (dot_S2048x4096_S4096x512_S2048x512_1_0_0_1_n_n.rhsIdx i q 0).val = (q ⟨0, by decide⟩).val :=
  dot_S2048x4096_S4096x512_S2048x512_1_0_0_1_n_n.rhsIdx_val_of_single rfl i q
theorem rhs_col (i : S2048x512.Idx) (q : dot_S2048x4096_S4096x512_S2048x512_1_0_0_1_n_n.contr.Idx) :
    (dot_S2048x4096_S4096x512_S2048x512_1_0_0_1_n_n.rhsIdx i q 1).val = (i 1).val := by
  unfold DotDims.rhsIdx
  rw [dif_neg (show ¬(1 : Fin S4096x512.rank) ∈ dot_S2048x4096_S4096x512_S2048x512_1_0_0_1_n_n.rhsBatch by decide),
    dif_pos (show (1 : Fin S4096x512.rank) ∈ dot_S2048x4096_S4096x512_S2048x512_1_0_0_1_n_n.rhsNonContracting by decide)]
  rfl

/-- The matrix unit's product of two blocks into the zero accumulator, at entry `(p, q)`: row `p` against column `q`. -/
theorem matmul_entry (a : FVec Ideal S2048x4096 .bf16) (b : FVec Ideal S4096x512 .bf16) (p : Fin 2048) (q : Fin 512) :
    matmul dot_S2048x4096_S4096x512_S2048x512_1_0_0_1_n_n none a b (constant (F := Ideal) S2048x512 .f32 0x00000000#32) (ix2 p q)
      = ∑ k : Fin 4096, a (ix2 p k) * b (ix2 k q) := by
  simp only [matmul]
  rw [Ideal.matmul_constant_zero_apply,
    ← Equiv.sum_comp (ValueIdx.contrEquiv1 dot_S2048x4096_S4096x512_S2048x512_1_0_0_1_n_n 4096 rfl rfl).symm]
  refine Finset.sum_congr rfl fun k _ => ?_
  have hk := ValueIdx.contrEquiv1_symm_val dot_S2048x4096_S4096x512_S2048x512_1_0_0_1_n_n 4096 rfl rfl k
  have el : dot_S2048x4096_S4096x512_S2048x512_1_0_0_1_n_n.lhsIdx (ix2 p q)
      ((ValueIdx.contrEquiv1 dot_S2048x4096_S4096x512_S2048x512_1_0_0_1_n_n 4096 rfl rfl).symm k) = ix2 p k :=
    funext fun ax => Fin.ext (by
      match ax with
      | ⟨0, _⟩ => exact lhs_row _ _
      | ⟨1, _⟩ => exact (lhs_contr _ _).trans hk)
  have er : dot_S2048x4096_S4096x512_S2048x512_1_0_0_1_n_n.rhsIdx (ix2 p q)
      ((ValueIdx.contrEquiv1 dot_S2048x4096_S4096x512_S2048x512_1_0_0_1_n_n 4096 rfl rfl).symm k) = ix2 k q :=
    funext fun ax => Fin.ext (by
      match ax with
      | ⟨0, _⟩ => exact (rhs_contr _ _).trans hk
      | ⟨1, _⟩ => exact rhs_col _ _)
  rw [el, er]

/-! ## The stored value -/

/-- The body's stored value is the shared tail of `product · scale-row + bias-row`, pointwise. -/
theorem pay_eq (x0 : Vec Ideal S2048x4096 .bf16) (x1 : Vec Ideal S4096x512 .bf16) (x2 x3 : Vec Ideal S1x512 .f32)
    (j : S2048x512.Idx) :
    k0_pay1 (F := Ideal) x0 x1 x2 x3 j
      = Cert.Spec.geluRelu
          (matmul dot_S2048x4096_S4096x512_S2048x512_1_0_0_1_n_n none
              (shapeCast S2048x4096 x0 shapeCasts_S2048x4096_S2048x4096 : FVec Ideal S2048x4096 .bf16)
              (shapeCast S4096x512 x1 shapeCasts_S4096x512_S4096x512 : FVec Ideal S4096x512 .bf16)
              (constant (F := Ideal) S2048x512 .f32 0x00000000#32) j
            * broadcastTo S2048x512 (shapeCast S1x512 x2 shapeCasts_S1x512_S1x512 : FVec Ideal S1x512 .f32) broadcasts_S1x512_S2048x512 j
            + broadcastTo S2048x512 (shapeCast S1x512 x3 shapeCasts_S1x512_S1x512 : FVec Ideal S1x512 .f32) broadcasts_S1x512_S2048x512 j) := rfl

/-- Entry `(p, q)` of the stored value, from the loaded blocks. -/
theorem pay_entry (x0 : Vec Ideal S2048x4096 .bf16) (x1 : Vec Ideal S4096x512 .bf16) (x2 x3 : Vec Ideal S1x512 .f32)
    (p : Fin 2048) (q : Fin 512) :
    k0_pay1 (F := Ideal) x0 x1 x2 x3 (ix2 p q)
      = Cert.Spec.geluRelu ((∑ k : Fin 4096, x0 (ix2 p k) * x1 (ix2 k q)) * x2 (ix2 (0 : Fin 1) q) + x3 (ix2 (0 : Fin 1) q)) := by
  rw [pay_eq, shapeCast_self, shapeCast_self, shapeCast_self, shapeCast_self, matmul_entry,
    broadcastTo_1b_ab_apply, broadcastTo_1b_ab_apply]

end Cert.KernelIdeal.Payload

end
-- ==== Proof.Staged.lean ====
/-
  The four arrays the kernel's windows read, as the region finds them.

  Before the launch the host computes, per column `n`, the folded scale `γ[n] · (var[n] + ε)^(-1/2)` and the folded bias
  `β[n] − (μ[n] · γ[n]) · (var[n] + ε)^(-1/2)`, each laid out as one `[1, 4096]` row, and rounds `x` and `w` to bf16 —
  which on the extended reals is the identity. So the staged `x` and `w` ARE the arguments, and the staged rows read,
  at `(0, n)`, the two per-column expressions.
-/
import proofs.«158655_j3556232922286_2_alg».proof.Proof.Gen.KernelIdeal.Frame
import proofs.«158655_j3556232922286_2_alg».proof.Proof.Spec
import Idealize.ShloMosaic.Lib.StableHlo.Run
import Idealize.ShloMosaic.Lib.ValueLayout

noncomputable section

namespace Cert.KernelIdeal.Staged

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## The six argument arrays, typed as arrays of extended reals -/

abbrev argX : S8192x4096.Idx → EReal := m ((c : Thread nD τ).loc main_arg0)
abbrev argW : S4096x4096.Idx → EReal := m ((c : Thread nD τ).loc main_arg1)
abbrev argGamma : S4096.Idx → EReal := m ((c : Thread nD τ).loc main_arg2)
abbrev argBeta : S4096.Idx → EReal := m ((c : Thread nD τ).loc main_arg3)
abbrev argMean : S4096.Idx → EReal := m ((c : Thread nD τ).loc main_arg4)
abbrev argVar : S4096.Idx → EReal := m ((c : Thread nD τ).loc main_arg5)

/-! ## What the host leaves in the windows' arrays -/

/-- The staged left operand is the argument `x`: the change of float format is the identity. -/
theorem x_eq : (V m c main_v9 : S8192x4096.Idx → EReal) = argX m c := by
  dsimp only [Gen.V, Gen.hostOps0]
  after_results
  rfl

/-- The staged right operand is the argument `w`. -/
theorem w_eq : (V m c main_v10 : S4096x4096.Idx → EReal) = argW m c := by
  dsimp only [Gen.V, Gen.hostOps0]
  after_results
  rfl

/-- The staged scale row, as the host operations compose it. -/
theorem scale_eq : (V m c main_v4 : S1x4096.Idx → EReal)
    = shapeCast S1x4096 (mulf (m ((c : Thread nD τ).loc main_arg2))
        (Host.rsqrt (addf (m ((c : Thread nD τ).loc main_arg5))
          (broadcastInDim S4096 ![] bcast_S_S4096 (constant (F := Ideal) S_ .f32 0x3727C5AC#32)))) : FVec Ideal S4096 .f32)
        shapeCasts_S4096_S1x4096 := by
  dsimp only [Gen.V, Gen.hostOps0]
  after_results
  rfl

/-- The staged bias row, as the host operations compose it. -/
theorem bias_eq : (V m c main_v8 : S1x4096.Idx → EReal)
    = shapeCast S1x4096 (subf (m ((c : Thread nD τ).loc main_arg3))
        (mulf (mulf (m ((c : Thread nD τ).loc main_arg4)) (m ((c : Thread nD τ).loc main_arg2)))
          (Host.rsqrt (addf (m ((c : Thread nD τ).loc main_arg5))
            (broadcastInDim S4096 ![] bcast_S_S4096 (constant (F := Ideal) S_ .f32 0x3727C5AC#32))))) : FVec Ideal S4096 .f32)
        shapeCasts_S4096_S1x4096 := by
  dsimp only [Gen.V, Gen.hostOps0]
  after_results
  rfl

/-- The scale row at `(0, n)`: `γ[n] · (var[n] + ε)^(-1/2)`. -/
theorem scale_apply (n : Fin 4096) :
    (V m c main_v4 : S1x4096.Idx → EReal) (ix2 (0 : Fin 1) n)
      = argGamma m c (ix1 n) * Ideal.rsqrt (argVar m c (ix1 n) + Cert.Spec.eps) :=
  (congrFun (scale_eq m c) (ix2 (0 : Fin 1) n)).trans ((shapeCast_a_1a_apply _ shapeCasts_S4096_S1x4096 (0 : Fin 1) n).trans rfl)

/-- The bias row at `(0, n)`: `β[n] − (μ[n] · γ[n]) · (var[n] + ε)^(-1/2)`. -/
theorem bias_apply (n : Fin 4096) :
    (V m c main_v8 : S1x4096.Idx → EReal) (ix2 (0 : Fin 1) n)
      = argBeta m c (ix1 n)
          - argMean m c (ix1 n) * argGamma m c (ix1 n) * Ideal.rsqrt (argVar m c (ix1 n) + Cert.Spec.eps) :=
  (congrFun (bias_eq m c) (ix2 (0 : Fin 1) n)).trans ((shapeCast_a_1a_apply _ shapeCasts_S4096_S1x4096 (0 : Fin 1) n).trans rfl)

end Cert.KernelIdeal.Staged

end
-- ==== Proof.Whole.lean ====
/-
  From blocks to the whole result array.

  The grid is 4 × 8. At point `(i, j)` the output window's block is rows `2048 i … 2048 i + 2047` and columns
  `512 j … 512 j + 511` of the `[8192, 4096]` result; the `x` window's block is the same rows and all 4096 columns, the `w`
  window's all 4096 rows and the same columns, and the scale and bias windows' the one row and the same columns. So entry
  `(p, q)` of what the point writes back is the specification's `kernelOut` at `(2048 i + p, 512 j + q)`: the block's
  contraction is row `2048 i + p` of `x` against column `512 j + q` of `w`, and the two rows are read at that column.
  The 32 blocks tile the array (entry `(r, s)` lies in the block of point `(r / 2048, s / 512)`), so the array ends
  holding `kernelOut` everywhere.
-/
import proofs.«158655_j3556232922286_2_alg».proof.Proof.Gen.KernelIdeal.Value
import proofs.«158655_j3556232922286_2_alg».proof.Proof.Payload
import proofs.«158655_j3556232922286_2_alg».proof.Proof.Staged

noncomputable section

namespace Cert.KernelIdeal.Whole

open Cert.KernelIdeal Cert.KernelIdeal.Gen Cert.KernelIdeal.Staged
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array as one function of the six argument arrays. -/
def result (c : Dev nD) : S8192x4096.Idx → EReal := fun i =>
  Cert.Spec.kernelOut (argX m c) (argW m c) (argGamma m c) (argBeta m c) (argMean m c) (argVar m c)
    (⟨(i 0).val, (i 0).isLt⟩ : Fin 8192) (⟨(i 1).val, (i 1).isLt⟩ : Fin 4096)

theorem result_ix2 (c : Dev nD) (r : Fin 8192) (s : Fin 4096) :
    result m c (ix2 r s)
      = Cert.Spec.kernelOut (argX m c) (argW m c) (argGamma m c) (argBeta m c) (argMean m c) (argVar m c) r s := rfl

theorem origin : (![0, 0] : Fin 2 → Nat) = fun _ => 0 := funext fun a => by fin_cases a <;> rfl

/-! ## The index maps, decided over the 32 grid points -/

/-- The `x` window follows the output's block row and stays at block column 0; the `w`, scale and bias windows stay at
    block row 0 and follow the output's block column; the output's block indices range over 4 × 8. -/
theorem index_maps : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 3 ∧ win0_4.index t (1 : Fin 2) ≤ 7 :=
  (by decide +kernel : ∀ t : Fin grid0.N, _)

/-- Every one of the 4 × 8 output blocks is some point's. -/
theorem index_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-! ## The input blocks, read where the output's block says -/

/-- Entry `(p, k)` of the `x` block at a point in block row `r` is `x` at `(2048 r + p, k)`. -/
theorem read_x (c : Dev nD) (t : Fin cfg0.N) (r : Nat) (h0 : win0_0.index t (0 : Fin 2) = r)
    (h1 : win0_0.index t (1 : Fin 2) = 0) (hr : r ≤ 3) (p : Fin 2048) (k : Fin 4096) :
    iblk m c 0 t (ix2 p k) = argX m c (ix2 (⟨r * 2048 + p.val, by have := p.isLt; omega⟩ : Fin 8192) k) := by
  have hemb : ((cfg0.win 0).blk t).view.emb (ix2 p k)
      = ix2 (⟨r * 2048 + p.val, by have := p.isLt; omega⟩ : Fin 8192) k := by
    funext a; apply Fin.ext
    match a with
    | ⟨0, _⟩ => show win0_0.index t (0 : Fin 2) * 2048 + 1 * p.val = r * 2048 + p.val; omega
    | ⟨1, _⟩ => show win0_0.index t (1 : Fin 2) * 4096 + 1 * k.val = k.val; omega
  show (V m c main_v9 : S8192x4096.Idx → EReal) (((cfg0.win 0).blk t).view.emb (ix2 p k)) = _
  rw [hemb, Staged.x_eq]

/-- Entry `(k, q)` of the `w` block at a point in block column `s` is `w` at `(k, 512 s + q)`. -/
theorem read_w (c : Dev nD) (t : Fin cfg0.N) (s : Nat) (h0 : win0_1.index t (0 : Fin 2) = 0)
    (h1 : win0_1.index t (1 : Fin 2) = s) (hs : s ≤ 7) (k : Fin 4096) (q : Fin 512) :
    iblk m c 1 t (ix2 k q) = argW m c (ix2 k (⟨s * 512 + q.val, by have := q.isLt; omega⟩ : Fin 4096)) := by
  have hemb : ((cfg0.win 1).blk t).view.emb (ix2 k q)
      = ix2 k (⟨s * 512 + q.val, by have := q.isLt; omega⟩ : Fin 4096) := by
    funext a; apply Fin.ext
    match a with
    | ⟨0, _⟩ => show win0_1.index t (0 : Fin 2) * 4096 + 1 * k.val = k.val; omega
    | ⟨1, _⟩ => show win0_1.index t (1 : Fin 2) * 512 + 1 * q.val = s * 512 + q.val; omega
  show (V m c main_v10 : S4096x4096.Idx → EReal) (((cfg0.win 1).blk t).view.emb (ix2 k q)) = _
  rw [hemb, Staged.w_eq]

/-- Entry `(0, q)` of the scale block at a point in block column `s` is the folded scale of column `512 s + q`. -/
theorem read_scale (c : Dev nD) (t : Fin cfg0.N) (s : Nat) (h0 : win0_2.index t (0 : Fin 2) = 0)
    (h1 : win0_2.index t (1 : Fin 2) = s) (hs : s ≤ 7) (q : Fin 512) :
    iblk m c 2 t (ix2 (0 : Fin 1) q)
      = argGamma m c (ix1 (⟨s * 512 + q.val, by have := q.isLt; omega⟩ : Fin 4096))
          * Ideal.rsqrt (argVar m c (ix1 (⟨s * 512 + q.val, by have := q.isLt; omega⟩ : Fin 4096)) + Cert.Spec.eps) := by
  have hemb : ((cfg0.win 2).blk t).view.emb (ix2 (0 : Fin 1) q)
      = ix2 (0 : Fin 1) (⟨s * 512 + q.val, by have := q.isLt; omega⟩ : Fin 4096) := by
    funext a; apply Fin.ext
    match a with
    | ⟨0, _⟩ => show win0_2.index t (0 : Fin 2) * 1 + 1 * 0 = 0; omega
    | ⟨1, _⟩ => show win0_2.index t (1 : Fin 2) * 512 + 1 * q.val = s * 512 + q.val; omega
  show (V m c main_v4 : S1x4096.Idx → EReal) (((cfg0.win 2).blk t).view.emb (ix2 (0 : Fin 1) q)) = _
  rw [hemb, Staged.scale_apply]

/-- Entry `(0, q)` of the bias block at a point in block column `s` is the folded bias of column `512 s + q`. -/
theorem read_bias (c : Dev nD) (t : Fin cfg0.N) (s : Nat) (h0 : win0_3.index t (0 : Fin 2) = 0)
    (h1 : win0_3.index t (1 : Fin 2) = s) (hs : s ≤ 7) (q : Fin 512) :
    iblk m c 3 t (ix2 (0 : Fin 1) q)
      = argBeta m c (ix1 (⟨s * 512 + q.val, by have := q.isLt; omega⟩ : Fin 4096))
          - argMean m c (ix1 (⟨s * 512 + q.val, by have := q.isLt; omega⟩ : Fin 4096))
            * argGamma m c (ix1 (⟨s * 512 + q.val, by have := q.isLt; omega⟩ : Fin 4096))
            * Ideal.rsqrt (argVar m c (ix1 (⟨s * 512 + q.val, by have := q.isLt; omega⟩ : Fin 4096)) + Cert.Spec.eps) := by
  have hemb : ((cfg0.win 3).blk t).view.emb (ix2 (0 : Fin 1) q)
      = ix2 (0 : Fin 1) (⟨s * 512 + q.val, by have := q.isLt; omega⟩ : Fin 4096) := by
    funext a; apply Fin.ext
    match a with
    | ⟨0, _⟩ => show win0_3.index t (0 : Fin 2) * 1 + 1 * 0 = 0; omega
    | ⟨1, _⟩ => show win0_3.index t (1 : Fin 2) * 512 + 1 * q.val = s * 512 + q.val; omega
  show (V m c main_v8 : S1x4096.Idx → EReal) (((cfg0.win 3).blk t).view.emb (ix2 (0 : Fin 1) q)) = _
  rw [hemb, Staged.bias_apply]

/-! ## What a point writes back -/

/-- A block contraction whose two operands are rows of `X` and columns of `W` is the whole arrays' contraction. -/
theorem block_sum (x0 : Vec Ideal S2048x4096 .bf16) (x1 : Vec Ideal S4096x512 .bf16)
    (X : S8192x4096.Idx → EReal) (W : S4096x4096.Idx → EReal) (R : Fin 8192) (C : Fin 4096) (p : Fin 2048) (q : Fin 512)
    (h0 : ∀ k : Fin 4096, x0 (ix2 p k) = X (ix2 R k)) (h1 : ∀ k : Fin 4096, x1 (ix2 k q) = W (ix2 k C)) :
    (∑ k : Fin 4096, x0 (ix2 p k) * x1 (ix2 k q)) = Cert.Spec.rowDotCol X W R C :=
  Finset.sum_congr rfl fun k _ => by rw [h0 k, h1 k]

/-- WHAT POINT `t` WRITES BACK is block `t` of `result`. -/
theorem flushed_eq (c : Dev nD) (t : Fin cfg0.N) :
    (dats m 0 c).flushed 4 t = ((cfg0.win 4).blk t).view.read (Elt Ideal) (result m c) := by
  rw [Value.flushed4 m c t]
  unfold out0_4
  rw [View.canon_unit_zero origin]
  simp only [View.ld_unit_zero (S := S2048x4096) origin, View.ld_unit_zero (S := S4096x512) origin,
    View.ld_unit_zero (S := S1x512) origin]
  obtain ⟨e0, e1, e2, e3, e4, e5, e6, e7, b0, b1⟩ := index_maps t
  funext j
  obtain ⟨p, q, rfl⟩ : ∃ (p : Fin 2048) (q : Fin 512), j = ix2 p q :=
    ⟨⟨(j 0).val, (j 0).isLt⟩, ⟨(j 1).val, (j 1).isLt⟩, funext fun a => by match a with | ⟨0, _⟩ => rfl | ⟨1, _⟩ => rfl⟩
  have hemb : ((cfg0.win 4).blk t).view.emb (ix2 p q)
      = ix2 (⟨win0_4.index t (0 : Fin 2) * 2048 + p.val, by have := p.isLt; omega⟩ : Fin 8192)
          (⟨win0_4.index t (1 : Fin 2) * 512 + q.val, by have := q.isLt; omega⟩ : Fin 4096) := by
    funext a; apply Fin.ext
    match a with
    | ⟨0, _⟩ => show win0_4.index t (0 : Fin 2) * 2048 + 1 * p.val = win0_4.index t (0 : Fin 2) * 2048 + p.val; omega
    | ⟨1, _⟩ => show win0_4.index t (1 : Fin 2) * 512 + 1 * q.val = win0_4.index t (1 : Fin 2) * 512 + q.val; omega
  show k0_pay1 (F := Ideal) (iblk m c 0 t) (iblk m c 1 t) (iblk m c 2 t) (iblk m c 3 t) (ix2 p q)
    = result m c (((cfg0.win 4).blk t).view.emb (ix2 p q))
  rw [hemb, result_ix2]
  refine (Payload.pay_entry (iblk m c 0 t) (iblk m c 1 t) (iblk m c 2 t) (iblk m c 3 t) p q).trans ?_
  refine congrArg Cert.Spec.geluRelu ?_
  exact congrArg₂ (fun a b : EReal => a + b)
    (congrArg₂ (fun a b : EReal => a * b)
      (block_sum (iblk m c 0 t) (iblk m c 1 t) (argX m c) (argW m c)
        (⟨win0_4.index t (0 : Fin 2) * 2048 + p.val, by have := p.isLt; omega⟩ : Fin 8192)
        (⟨win0_4.index t (1 : Fin 2) * 512 + q.val, by have := q.isLt; omega⟩ : Fin 4096) p q
        (fun k => read_x m c t (win0_4.index t (0 : Fin 2)) e0 e1 b0 p k)
        (fun k => read_w m c t (win0_4.index t (1 : Fin 2)) e2 e3 b1 k q))
      (read_scale m c t (win0_4.index t (1 : Fin 2)) e4 e5 b1 q))
    (read_bias m c t (win0_4.index t (1 : Fin 2)) e6 e7 b1 q)

/-! ## The blocks tile the array -/

/-- An entry of the array is in point `t`'s block iff each coordinate is in the block's range on its axis. -/
theorem mem_blk (t : Fin cfg0.N) (i : S8192x4096.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_v11).slice (win0_4.rect t)).set ↔ _
  rw [View.set_slice_whole, Rect.mem_set_unit]
  exact Iff.rfl

/-- Entry `(r, s)` lies in the block of the point whose block indices are `(r / 2048, s / 512)`. -/
theorem cover (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := index_onto ⟨(i 0).val / 2048, by omega⟩ ⟨(i 1).val / 512, by omega⟩
  have q0 : win0_4.index t (0 : Fin 2) = (i 0).val / 2048 := congrFun ht 0
  have q1 : win0_4.index t (1 : Fin 2) = (i 1).val / 512 := congrFun ht 1
  refine ⟨t, flush0_4 t, ?_⟩
  rw [mem_blk]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 512 ≤ (i 1).val ∧ (i 1).val < win0_4.index t (1 : Fin 2) * 512 + 512
    omega

/-! ## The array after the run, and the run -/

/-- THE ARRAY after the run is `result`. -/
theorem final (c : Dev nD) : (dats m 0 c).arrAt 4 cfg0.N = result m c :=
  (dats m 0 c).arrAt_eq_of_cover 4 (result m c) (fun t _ => flushed_eq m c t) (cover)

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.RefValue.lean ====
/-
  The reference's result, one entry at a time.

  Read at `(b, n)`, the reference's last stage is the shared GELU/ReLU tail of its batch normalisation
  `γ[n] · ((∑ k, x[b,k]·w[k,n] − μ[n]) / √(var[n] + ε)) + β[n]`: every per-column vector reaches the `[8192, 4096]`
  array through a `[1, 4096]` row broadcast down the batch axis, so at `(b, n)` it is read at `n`; the host's
  matrix product at `(b, n)` is row `b` of `x` against column `n` of `w`.
-/
import proofs.«158655_j3556232922286_2_alg».proof.Proof.Gen.ReferenceIdeal.Read
import proofs.«158655_j3556232922286_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-! ## Where each broadcast reads its operand -/

theorem col_mean (b : Fin 8192) (n : Fin 4096) : idx_main_v1 (idx_main_v2 (ix2 b n)) = ix1 n :=
  funext fun a => Fin.ext (by match a with | ⟨0, _⟩ => rfl)
theorem col_var (b : Fin 8192) (n : Fin 4096) : idx_main_v7 (idx_main_v8 (ix2 b n)) = ix1 n :=
  funext fun a => Fin.ext (by match a with | ⟨0, _⟩ => rfl)
theorem col_gamma (b : Fin 8192) (n : Fin 4096) : idx_main_v10 (idx_main_v11 (ix2 b n)) = ix1 n :=
  funext fun a => Fin.ext (by match a with | ⟨0, _⟩ => rfl)
theorem col_beta (b : Fin 8192) (n : Fin 4096) : idx_main_v13 (idx_main_v14 (ix2 b n)) = ix1 n :=
  funext fun a => Fin.ext (by match a with | ⟨0, _⟩ => rfl)
theorem row_of_x (b : Fin 8192) (n : Fin 4096) (k : Fin 4096) : lidx_main_v0 (ix2 b n) k = ix2 b k :=
  funext fun a => Fin.ext (by match a with | ⟨0, _⟩ => rfl | ⟨1, _⟩ => rfl)
theorem col_of_w (b : Fin 8192) (n : Fin 4096) (k : Fin 4096) : ridx_main_v0 (ix2 b n) k = ix2 k n :=
  funext fun a => Fin.ext (by match a with | ⟨0, _⟩ => rfl | ⟨1, _⟩ => rfl)

/-- The reference's result at `(b, n)` is the specification's `referenceOut` there. -/
theorem result_apply (x0 : (⟨S8192x4096, .f32⟩ : BufTy).Contents (Elt Ideal)) (x1 : (⟨S4096x4096, .f32⟩ : BufTy).Contents (Elt Ideal))
    (x2 x3 x4 x5 : (⟨S4096, .f32⟩ : BufTy).Contents (Elt Ideal)) (b : Fin 8192) (n : Fin 4096) :
    val_main_v30 (F := Ideal) x0 x1 x2 x3 x4 x5 (ix2 b n) = Cert.Spec.referenceOut x0 x1 x2 x3 x4 x5 b n := by
  simp only [val_main_v30_apply, val_main_v29_apply, val_main_cst_4_apply, val_main_v28_apply, val_main_v27_apply,
    val_main_v26_apply, val_main_cst_3_apply, val_main_v25_apply, val_main_v24_apply, val_main_v23_apply,
    val_main_cst_2_apply, val_main_v22_apply, val_main_v21_apply, val_main_v20_apply, val_main_v19_apply,
    val_main_v18_apply, val_main_cst_1_apply, val_main_v17_apply, val_main_v16_apply, val_main_cst_0_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_cst_apply, val_main_v3_apply, val_main_v2_apply,
    val_main_v1_apply, val_main_v0_apply, col_mean, col_var, col_gamma, col_beta, row_of_x, col_of_w,
    Ideal.ofBits_def, Ideal.addf_def, Ideal.subf_def, Ideal.mulf_def, Ideal.maximumf_def, Ideal.hostDivf_def,
    Ideal.hostUnary_sqrt_def, Ideal.hostUnary_tanh_def]
  rfl

end Cert.ReferenceIdeal.RefValue

end
-- ==== Proof.Domain.lean ====
/-
  What the precondition says, entry by entry.

  The precondition is a conjunction of seven `all`s: for each of the six arrays that every entry's absolute value is
  below `+∞`, and that every `var[n] + ε` is above zero. An `all` is a reduction by `and` from `true`, so each
  conjunct gives its comparison at every index. On the extended reals `|x| < +∞` says `x` is a real number; the last
  comparison is `0 < var[n] + ε` itself, with the very word `ε` the two programs add.
-/
import proofs.«158655_j3556232922286_2_alg».proof.Pre_finite_inputs
import proofs.«158655_j3556232922286_2_alg».proof.Proof.Gen.Pre_finite_inputs
import proofs.«158655_j3556232922286_2_alg».proof.Proof.Spec
import Idealize.ShloMosaic.Lib.ReduceAll
import Idealize.ShloMosaic.Lib.ValueIdx
import Idealize.ShloMosaic.PureOps.Ideal.Laws

noncomputable section

namespace Cert.Domain

open Idealize.ShloMosaic Idealize.ShloMosaic.ValueIdx Cert.Pre_finite_inputs

/-- The scalar shape has one index. -/
instance : Subsingleton S_.Idx := ⟨fun a b => funext fun d => d.elim0⟩

/-- The word `0x7F800000` is `+∞`. -/
theorem inf_word : Ideal.ofBits .f32 0x7F800000#32 = ⊤ := by simp [Ideal.ofBits, Ideal.ieee]

/-- An extended real whose absolute value is below `+∞` is a real number. -/
theorem real_of_abs_lt (x : Ideal .f32)
    (h : FloatOps.cmpf (F := Ideal) .olt (FloatOps.hostAbsf x) (FloatOps.ofBits .f32 0x7F800000#32) = 1#1) :
    ∃ r : ℝ, x = (r : EReal) := by
  rw [Ideal.hostAbsf_def, Ideal.cmpf_def, Ideal.absf_def, Ideal.ofBits_def, inf_word] at h
  induction x using EReal.rec with
  | bot => simp [Ideal.cmp] at h
  | top => simp [Ideal.cmp] at h
  | coe r => exact ⟨r, rfl⟩

/-- The comparison "greater than the zero word" read back. -/
theorem pos_of_cmp (u : Ideal .f32)
    (h : FloatOps.cmpf (F := Ideal) .ogt u (FloatOps.ofBits .f32 0x00000000#32) = 1#1) : (0 : EReal) < u := by
  rw [Ideal.cmpf_def, Ideal.ofBits_def, Ideal.ofBits_zero_f32] at h
  by_contra hn
  have hd : decide ((0 : EReal) < u) = false := decide_eq_false hn
  simp [Ideal.cmp, hd] at h

/-- THE PRECONDITION, DECODED: the first five arrays hold real numbers and every `var[n] + ε` is positive.
    (The sixth array's finiteness is among the conjuncts too; the proof of the claim does not need it.) -/
theorem decode (a0 : FVec Ideal S8192x4096 .f32) (a1 : FVec Ideal S4096x4096 .f32) (a2 a3 a4 a5 : FVec Ideal S4096 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal))
      ∧ (∀ i, (0 : EReal) < a5 i + Cert.Spec.eps) := by
  have h0 := congrFun h ix0
  dsimp only [fn, fn_part1, fn_part2] at h0
  simp only [Idealize.ShloMosaic.andi, IntOp.andi_eq_one] at h0
  obtain ⟨⟨⟨⟨⟨⟨hx, hw⟩, hg⟩, hb⟩, hm⟩, _⟩, hv⟩ := h0
  exact ⟨fun i => real_of_abs_lt (a0 i) (Host.reduce_andi_all _ _ _ _ ix0 hx i),
    fun i => real_of_abs_lt (a1 i) (Host.reduce_andi_all _ _ _ _ ix0 hw i),
    fun i => real_of_abs_lt (a2 i) (Host.reduce_andi_all _ _ _ _ ix0 hg i),
    fun i => real_of_abs_lt (a3 i) (Host.reduce_andi_all _ _ _ _ ix0 hb i),
    fun i => real_of_abs_lt (a4 i) (Host.reduce_andi_all _ _ _ _ ix0 hm i),
    fun i => pos_of_cmp (a5 i + Cert.Spec.eps) (Host.reduce_andi_all _ _ _ _ ix0 hv i)⟩

end Cert.Domain

end
-- ==== Proof.lean ====
/-
  The certificate of the fused linear layer: `relu (gelu_tanh (batchnorm (x · w)))` over `x : [8192, 4096]`,
  `w : [4096, 4096]` and four per-column vectors.

  The kernel computes the matrix product block by block on a 4 × 8 grid (each block a full-depth contraction on the
  matrix unit, operands rounded to bf16 on the host) and applies the inference batch normalisation folded into one scale
  and one bias per column, `a · (γ · u^(-1/2)) + (β − μ γ · u^(-1/2))` with `u = var + ε`; the reference takes one whole
  matrix product and normalises as `γ · ((a − μ) / √u) + β`. Both then apply the same tanh-approximate GELU and ReLU.

  On the extended reals the roundings are the identity and both matrix products are the same contraction, so the two
  results differ only in the arrangement of the normalisation. The two arrangements are one number when the contraction
  and `γ, β, μ` are real — the inputs' finiteness — and `var + ε > 0`, the domain of the reference's own divisor `√u`
  (Proof/Spec.lean `foldedNorm_eq_plainNorm`). Outside that domain they are not: at `var + ε = 0` the folded bias
  `β − μ γ · ∞` and the scale `γ · ∞` meet as `∞ − ∞`, where the reference has a plain `± ∞`.

  The pieces: Proof/Spec.lean (the two results as functions of the arguments, and the law), Proof/Payload.lean (the
  kernel body's stored value at an entry), Proof/Staged.lean (the arrays the host prepares for the windows),
  Proof/Whole.lean (from the 32 blocks to the whole result array, and the kernel's run), Proof/RefValue.lean (the
  reference's result at an entry), Proof/Domain.lean (the precondition read entry by entry). The three frames are the
  generated frame runs; no operation was rewritten by the idealisation, so there is nothing to preserve.
-/
import proofs.«158655_j3556232922286_2_alg».proof.Defs
import proofs.«158655_j3556232922286_2_alg».proof.Proof.Gen.Kernel
import proofs.«158655_j3556232922286_2_alg».proof.Proof.Gen.Kernel.Skeleton
import proofs.«158655_j3556232922286_2_alg».proof.Proof.Gen.Kernel.Launch
import proofs.«158655_j3556232922286_2_alg».proof.Proof.Gen.Kernel.Points
import proofs.«158655_j3556232922286_2_alg».proof.Proof.Gen.Kernel.Frame
import proofs.«158655_j3556232922286_2_alg».proof.Proof.Gen.KernelIdeal
import proofs.«158655_j3556232922286_2_alg».proof.Proof.Gen.KernelIdeal.Skeleton
import proofs.«158655_j3556232922286_2_alg».proof.Proof.Gen.KernelIdeal.Launch
import proofs.«158655_j3556232922286_2_alg».proof.Proof.Gen.KernelIdeal.Points
import proofs.«158655_j3556232922286_2_alg».proof.Proof.Gen.KernelIdeal.Frame
import proofs.«158655_j3556232922286_2_alg».proof.Proof.Gen.ReferenceIdeal
import proofs.«158655_j3556232922286_2_alg».proof.Proof.Gen.KernelIdeal.Value
import proofs.«158655_j3556232922286_2_alg».proof.Proof.Gen.ReferenceIdeal.Run
import proofs.«158655_j3556232922286_2_alg».proof.Proof.Gen.ReferenceIdeal.Read
import proofs.«158655_j3556232922286_2_alg».proof.Proof.Gen.Pre_finite_inputs
import proofs.«158655_j3556232922286_2_alg».proof.Proof.Whole
import proofs.«158655_j3556232922286_2_alg».proof.Proof.RefValue
import proofs.«158655_j3556232922286_2_alg».proof.Proof.Domain
import Idealize.ShloMosaic.Adequacy
import Idealize.ShloMosaic.Init

noncomputable section

namespace Cert.Proof

open Idealize.ShloMosaic Idealize.ShloMosaic.ValueIdx Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- The kernel's result array ends at `kernelOut` of its arguments (Proof/Whole.lean), the reference's at
    `referenceOut` of arguments that agree (the generated run and Proof/RefValue.lean); under the precondition the two are
    one function (Proof/Spec.lean, with Proof/Domain.lean's reading of the precondition). -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2]
  obtain ⟨hx, hw, hg, hb, hm, hv⟩ := Cert.Domain.decode _ _ _ _ _ _ (hpre c)
  funext i
  obtain ⟨b, n, rfl⟩ : ∃ (b : Fin 8192) (n : Fin 4096), i = ix2 b n := ⟨i 0, i 1, eq_ix2 i⟩
  rw [Cert.ReferenceIdeal.RefValue.result_apply]
  exact (Cert.Spec.kernelOut_eq_referenceOut _ _ _ _ _ _ hx hw hg hb hm hv b n).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
